-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S100000x256 .f32) (main_arg1 : IVec S2x1600000 32) (main_arg2 : FVec F S128x256 .f32) (main_arg3 : FVec F S128x256 .f32) (main_arg4 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S256 : Shape := ⟨1, ![256]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S256x256 : Shape := ⟨2, ![256, 256]⟩
abbrev S4000x256 : Shape := ⟨2, ![4000, 256]⟩
abbrev S100000x128 : Shape := ⟨2, ![100000, 128]⟩
abbrev S1700000x128 : Shape := ⟨2, ![1700000, 128]⟩
abbrev S1x256 : Shape := ⟨2, ![1, 256]⟩

abbrev nBuf : Space → Nat
  | .hbm => 103
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S100000, .i32⟩
  | .hbm, ⟨6, _⟩ => ⟨S1x100000, .i32⟩
  | .hbm, ⟨7, _⟩ => ⟨S1x100000, .i32⟩
  | .hbm, ⟨8, _⟩ => ⟨S2x100000, .i32⟩
  | .hbm, ⟨9, _⟩ => ⟨S2x1700000, .i32⟩
  | .hbm, ⟨10, _⟩ => ⟨S1x1700000, .i32⟩
  | .hbm, ⟨11, _⟩ => ⟨S1700000, .i32⟩
  | .hbm, ⟨12, _⟩ => ⟨S1x1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S256x256, .f32⟩
  | .hbm, ⟨61, _⟩ => ⟨S256x256, .f32⟩
  | .hbm, ⟨62, _⟩ => ⟨S100000x256, .bf16⟩
  | .hbm, ⟨63, _⟩ => ⟨S100000x128, .bf16⟩
  | .hbm, ⟨64, _⟩ => ⟨S100000x128, .bf16⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .bf16⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .bf16⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S100000x256, .f32⟩
  | .hbm, ⟨100, _⟩ => ⟨S1x256, .f32⟩
  | .hbm, ⟨101, _⟩ => ⟨S100000x256, .f32⟩
  | .hbm, ⟨102, _⟩ => ⟨S100000x256, .f32⟩
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S4000x256, .bf16⟩
  | .local _ .vmem, ⟨4, _⟩ => ⟨S4000x256, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_12 : Ref sig .tc := ⟨.hbm, 82, rfl⟩
abbrev main_v59 : Ref sig .tc := ⟨.hbm, 83, rfl⟩
abbrev main_v60 : Ref sig .tc := ⟨.hbm, 84, rfl⟩
abbrev main_c_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S128x256_S128x256_S256x256_d0 : Shape.Concatenates [S128x256, S128x256] S256x256 0
  transposes_S256x256_S256x256_1_0 : S256x256.Transposes [1, 0] S256x256
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S4000x256_S4000x256_0_0 : (Rect.unit (s := S4000x256) ![0, 0] S4000x256.size inb_S4000x256_S4000x256_0_0).PackedRows (EltTy.packing .bf16)
  slices_S100000x256_S100000x128_0_0 : S100000x256.Slices ![0, 0] S100000x128
  slices_S100000x256_S100000x128_0_128 : S100000x256.Slices ![0, 128] S100000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x256_S4000x256_1_0_0_1_n_n_wf : DotDims.WF S4000x256 S256x256 S4000x256 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .bf16 = 32 ∨ (Rect.block (s := S100000x256) S4000x256.size (cc0_transform_2 i) (hinb0_2 i)).WholeWords (EltTy.packing .bf16)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S256 : Shape := ⟨1, ![256]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S_ : Shape := ⟨0, ![]⟩
abbrev S1700000 : Shape := ⟨1, ![1700000]⟩
abbrev S1x1700000 : Shape := ⟨2, ![1, 1700000]⟩
abbrev S1700000x1 : Shape := ⟨2, ![1700000, 1]⟩
abbrev S256x128 : Shape := ⟨2, ![256, 128]⟩
abbrev S100000x128 : Shape := ⟨2, ![100000, 128]⟩
abbrev S1700000x128 : Shape := ⟨2, ![1700000, 128]⟩
abbrev S1x256 : Shape := ⟨2, ![1, 256]⟩

abbrev nBuf : Space → Nat
  | .hbm => 100
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S100000, .i32⟩
  | .hbm, ⟨6, _⟩ => ⟨S1x100000, .i32⟩
  | .hbm, ⟨7, _⟩ => ⟨S1x100000, .i32⟩
  | .hbm, ⟨8, _⟩ => ⟨S2x100000, .i32⟩
  | .hbm, ⟨9, _⟩ => ⟨S2x1700000, .i32⟩
  | .hbm, ⟨10, _⟩ => ⟨S_, .f32⟩
  | .hbm, ⟨11, _⟩ => ⟨S1700000, .f32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .f32⟩
  | .hbm, ⟨43, _⟩ => ⟨S100000, .f32⟩
  | .hbm, ⟨44, _⟩ => ⟨S100000, .i1⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S256x128, .f32⟩
  | .hbm, ⟨61, _⟩ => ⟨S100000x128, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x128, .f32⟩
  | .hbm, ⟨71, _⟩ => ⟨S1700000x1, .f32⟩
  | .hbm, ⟨72, _⟩ => ⟨S1700000x128, .f32⟩
  | .hbm, ⟨73, _⟩ => ⟨S1700000x128, .f32⟩
  | .hbm, ⟨74, _⟩ => ⟨S_, .f32⟩
  | .hbm, ⟨75, _⟩ => ⟨S100000x128, .f32⟩
  | .hbm, ⟨76, _⟩ => ⟨S1700000x1, .i32⟩
  | .hbm, ⟨77, _⟩ => ⟨S100000x128, .f32⟩
  | .hbm, ⟨78, _⟩ => ⟨S256x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S100000x256, .f32⟩
  | .hbm, ⟨97, _⟩ => ⟨S1x256, .f32⟩
  | .hbm, ⟨98, _⟩ => ⟨S100000x256, .f32⟩
  | .hbm, ⟨99, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  bcast_S_S1700000 : S_.BroadcastsInDim S1700000 (![] : Fin 0 → Fin S1700000.rank)
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x256_S256x128_1_0 : S128x256.Transposes [1, 0] S256x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.EdgeSpec.lean ====
/-
  The part of the computation the two programs share, as ONE function.

  A directed graph on 100000 nodes is given by an edge list `[2, 1600000]` of node numbers; a self loop is appended for
  every node, so there are 1700000 edges `e`, edge `e` joining `endpoint0 e` and `endpoint1 e`.  The degree of a node at
  one end is the number of edges having it at that end (a scatter-add of ones), `invSqrt d` is `d^(-1/2)` where `d > 0`
  and `0` elsewhere, and the weight of edge `e` is `invSqrt (deg₁ (endpoint1 e)) · 1 · invSqrt (deg₀ (endpoint0 e))`.
  Given a table `xp : [100000, 128]` of node rows, `aggregate xp src dst w` sends row `src e` of the table, times `w e`,
  to row `dst e` and sums what arrives at each node.  The result is the forward aggregate (from `endpoint1` to
  `endpoint0`) of one table beside the backward aggregate (from `endpoint0` to `endpoint1`) of another, `[100000, 256]`,
  plus the bias row.

  Both programs compute `outputOf xf xb …`; they differ only in how the two tables `xf`, `xb` are obtained from the node
  features and the two weight matrices.  Nothing here depends on what the floating-point operations are.
-/
import proofs.«167315_j34772055229049_2_alg».proof.ReferenceIdeal

noncomputable section

namespace Cert.EdgeSpec

open Cert.ReferenceIdeal Cert.ReferenceIdeal.Facts₀ Idealize.ShloMosaic Idealize.ShloMosaic.TcCoe

variable {F : FTy → Type} [FloatOps F] [Cert.ReferenceIdeal.Facts]

/-- An array of 32-bit integers of shape `s`. -/
abbrev IArr (F : FTy → Type) (s : Shape) : Type := (⟨s, .i32⟩ : BufTy).Contents (Elt F)
/-- An array of f32 numbers of shape `s`. -/
abbrev FArr (F : FTy → Type) (s : Shape) : Type := (⟨s, .f32⟩ : BufTy).Contents (Elt F)

/-- The edge list with one self loop per node appended: `[2, 1600000 + 100000]`. -/
def edges (x1 : IArr F S2x1600000) : IArr F S2x1700000 :=
  concatenate S2x1700000 1 [⟨S2x1600000, x1⟩, ⟨S2x100000, (concatenate S2x100000 0 [⟨S1x100000, (broadcastInDim S1x100000 ![1] bcast_S100000_S1x100000_1 (iotaInDim S100000 32 0))⟩, ⟨S1x100000, (broadcastInDim S1x100000 ![1] bcast_S100000_S1x100000_1 (iotaInDim S100000 32 0))⟩] concatenates_S1x100000_S1x100000_S2x100000_d0)⟩] concatenates_S2x1600000_S2x100000_S2x1700000_d1

/-- Row 0 of the edge list: one end of every edge. -/
def endpoint0 (x1 : IArr F S2x1600000) : IArr F S1700000 :=
  shapeCast _ (extractStridedSlice S1x1700000 ![0, 0] (edges (F := F) x1) slices_S2x1700000_S1x1700000_0_0) shapeCasts_S1x1700000_S1700000

/-- Row 1 of the edge list: the other end. -/
def endpoint1 (x1 : IArr F S2x1600000) : IArr F S1700000 :=
  shapeCast _ (extractStridedSlice S1x1700000 ![1, 0] (edges (F := F) x1) slices_S2x1700000_S1x1700000_1_0) shapeCasts_S1x1700000_S1700000

/-- The weight 1 on every edge. -/
def unitWeights : FArr F S1700000 :=
  broadcastInDim S1700000 ![] bcast_S_S1700000 (constant (F := F) S_ .f32 0x3F800000#32)

/-- A vector of node numbers as the one-column array of start indices a gather or scatter takes. -/
def startColumn {e : EltTy} (v : (⟨S1700000, e⟩ : BufTy).Contents (Elt F)) : (⟨S1700000x1, e⟩ : BufTy).Contents (Elt F) :=
  broadcastInDim S1700000x1 ![0] bcast_S1700000_S1700000x1_0 v

/-- The number of edges having each node at the end `v` (as a float): ones added up at `v e`. -/
def degree (v : IArr F S1700000) : FArr F S100000 :=
  Host.scatterAdd scatter_S100000_S1700000x1_S1700000_n_0_0_1 (broadcastInDim S100000 ![] bcast_S_S100000 (constant (F := F) S_ .f32 0x00000000#32)) (startColumn (F := F) v) (unitWeights (F := F))

/-- `d^(-1/2)` where `d > 0`, and `0` elsewhere. -/
def invSqrt (d : FArr F S100000) : FArr F S100000 :=
  select (cmpf .ogt d (broadcastInDim S100000 ![] bcast_S_S100000 (constant (F := F) S_ .f32 0x00000000#32))) (Host.rsqrt d) (broadcastInDim S100000 ![] bcast_S_S100000 (id (constant (F := F) S_ .f32 0x00000000#32)))

/-- A node number counted from the end when negative: `v + 100000` where `v < 0`. -/
def wrapIndex (v : IArr F S1700000) : IArr F S1700000 :=
  select (cmpi .slt v (broadcastInDim S1700000 ![] bcast_S_S1700000 (constantI S_ 32 0#32))) (addi v (broadcastInDim S1700000 ![] bcast_S_S1700000 (constantI S_ 32 100000#32))) v

/-- The weight of every edge from the two degree vectors, read at the edge's two ends. -/
def edgeWeightOf (e0 e1 : IArr F S1700000) : FArr F S1700000 :=
  mulf (mulf (Host.gather gather_S100000_S1700000x1_S1700000_n_0_n_n_0_1_1 (invSqrt (F := F) (degree (F := F) e1)) (startColumn (F := F) (wrapIndex (F := F) e1))) (unitWeights (F := F))) (Host.gather gather_S100000_S1700000x1_S1700000_n_0_n_n_0_1_1 (invSqrt (F := F) (degree (F := F) e0)) (startColumn (F := F) (wrapIndex (F := F) e0)))

/-- Row `src e` of the table, times `w e`, added into row `dst e`, over all edges. -/
def aggregate (xp : FArr F S100000x128) (src dst : IArr F S1700000) (w : FArr F S1700000) : FArr F S100000x128 :=
  Host.scatterAdd scatter_S100000x128_S1700000x1_S1700000x128_1_0_0_1 (broadcastInDim S100000x128 ![] bcast_S_S100000x128 (constant (F := F) S_ .f32 0x00000000#32)) (startColumn (F := F) dst) (mulf (Host.gather gather_S100000x128_S1700000x1_S1700000x128_1_0_n_n_0_1_1128 xp (startColumn (F := F) (wrapIndex (F := F) src))) (broadcastInDim S1700000x128 ![0, 1] bcast_S1700000x1_S1700000x128_0_1 (startColumn (F := F) w)))

/-- The two aggregates side by side plus the bias row, from the two tables, the two ends and the edge weights. -/
def outputOf (xf xb : FArr F S100000x128) (e0 e1 : IArr F S1700000) (w : FArr F S1700000) (x4 : FArr F S256) : FArr F S100000x256 :=
  addf (concatenate S100000x256 1 [⟨S100000x128, aggregate (F := F) xf e1 e0 w⟩, ⟨S100000x128, aggregate (F := F) xb e0 e1 w⟩] concatenates_S100000x128_S100000x128_S100000x256_d1) (broadcastInDim S100000x256 ![0, 1] bcast_S1x256_S100000x256_0_1 (broadcastInDim S1x256 ![1] bcast_S256_S1x256_1 x4))

/-- The result as a function of the two tables, the edge list and the bias. -/
def output (xf xb : FArr F S100000x128) (x1 : IArr F S2x1600000) (x4 : FArr F S256) : FArr F S100000x256 :=
  outputOf (F := F) xf xb (endpoint0 (F := F) x1) (endpoint1 (F := F) x1) (edgeWeightOf (F := F) (endpoint0 (F := F) x1) (endpoint1 (F := F) x1)) x4

end Cert.EdgeSpec

end
-- ==== Proof.RefRun.lean ====
/-
  The reference program's run, read back.

  The reference is a straight line of 95 host operations.  The first 55 build the edge list with self loops, the two
  endpoint vectors, the two degree vectors and the edge weights; the last 40 form the two projected tables
  `x · W_fᵀ` and `x · W_bᵀ` (a transpose followed by a matrix product each), aggregate them along the edges and add the
  bias.  Read part by part, the result buffer ends at `EdgeSpec.output` of those two matrix products, the edge list
  and the bias; every weakly fair execution terminates and leaves the five argument arrays as they were.
-/
import proofs.«167315_j34772055229049_2_alg».proof.Proof.Gen.ReferenceIdeal
import proofs.«167315_j34772055229049_2_alg».proof.Proof.EdgeSpec
import Idealize.ShloMosaic.Lib.StableHlo.Run
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 95 host operations, in order; the three operations of each call of the outlined `where` stand in the
    call's place, spelled over the plain references. -/
abbrev ops : List (HloOp τ sig (Elt F)) :=
  [ nullary main_v0 (iotaInDim S100000 32 0),
    unary main_v0 main_v1 (broadcastInDim S1x100000 ![1] bcast_S100000_S1x100000_1 : (⟨S100000, .i32⟩ : BufTy).Contents (Elt F) → (⟨S1x100000, .i32⟩ : BufTy).Contents (Elt F)),
    unary main_v0 main_v2 (broadcastInDim S1x100000 ![1] bcast_S100000_S1x100000_1 : (⟨S100000, .i32⟩ : BufTy).Contents (Elt F) → (⟨S1x100000, .i32⟩ : BufTy).Contents (Elt F)),
    binary main_v1 main_v2 main_v3 ((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)),
    binary main_arg1 main_v3 main_v4 ((fun a b => concatenate S2x1700000 1 [⟨S2x1600000, a⟩, ⟨S2x100000, b⟩] concatenates_S2x1600000_S2x100000_S2x1700000_d1) : (⟨S2x1600000, .i32⟩ : BufTy).Contents (Elt F) → (⟨S2x100000, .i32⟩ : BufTy).Contents (Elt F) → (⟨S2x1700000, .i32⟩ : BufTy).Contents (Elt F)),
    nullary main_cst (constant S_ .f32 0x3F800000#32),
    unary main_cst main_v5 (broadcastInDim S1700000 ![] bcast_S_S1700000 : (⟨S_, .f32⟩ : BufTy).Contents (Elt F) → (⟨S1700000, .f32⟩ : BufTy).Contents (Elt F)),
    unary main_v4 main_v6 ((extractStridedSlice S1x1700000 ![0, 0] · slices_S2x1700000_S1x1700000_0_0) : (⟨S2x1700000, .i32⟩ : BufTy).Contents (Elt F) → (⟨S1x1700000, .i32⟩ : BufTy).Contents (Elt F)),
    reshape main_v6 main_v7 rfl shapeCasts_S1x1700000_S1700000,
    unary main_v4 main_v8 ((extractStridedSlice S1x1700000 ![1, 0] · slices_S2x1700000_S1x1700000_1_0) : (⟨S2x1700000, .i32⟩ : BufTy).Contents (Elt F) → (⟨S1x1700000, .i32⟩ : BufTy).Contents (Elt F)),
    reshape main_v8 main_v9 rfl shapeCasts_S1x1700000_S1700000,
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v5 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    unary main_v9 main_v14 (broadcastInDim S1700000x1 ![0] bcast_S1700000_S1700000x1_0 : (⟨S1700000, .i32⟩ : BufTy).Contents (Elt F) → (⟨S1700000x1, .i32⟩ : BufTy).Contents (Elt F)),
    ternary main_v13 main_v14 main_v5 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    unary main_v15 main_v18 (Host.rsqrt : (⟨S100000, .f32⟩ : BufTy).Contents (Elt F) → (⟨S100000, .f32⟩ : BufTy).Contents (Elt F)),
    nullary main_cst_3 (constant S_ .f32 0x00000000#32),
    unary main_cst_3 main_call0_v0 (id : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v17 main_v18 main_call0_v1 main_v19 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v20 (broadcastInDim S1700000 ![] bcast_S_S1700000 : (⟨S_, .i32⟩ : BufTy).Contents (Elt F) → (⟨S1700000, .i32⟩ : BufTy).Contents (Elt F)),
    binary main_v9 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v22 (broadcastInDim S1700000 ![] bcast_S_S1700000 : (⟨S_, .i32⟩ : BufTy).Contents (Elt F) → (⟨S1700000, .i32⟩ : BufTy).Contents (Elt F)),
    binary main_v9 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v9 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v5 main_v27 (mulf : (⟨S1700000, .f32⟩ : BufTy).Contents (Elt F) → (⟨S1700000, .f32⟩ : BufTy).Contents (Elt F) → (⟨S1700000, .f32⟩ : BufTy).Contents (Elt F)),
    nullary main_cst_5 (constant S_ .f32 0x00000000#32),
    unary main_cst_5 main_v28 (broadcastInDim S100000 ![] bcast_S_S100000 : (⟨S_, .f32⟩ : BufTy).Contents (Elt F) → (⟨S100000, .f32⟩ : BufTy).Contents (Elt F)),
    binary main_v12 main_v28 main_v29 (cmpf .ogt : (⟨S100000, .f32⟩ : BufTy).Contents (Elt F) → (⟨S100000, .f32⟩ : BufTy).Contents (Elt F) → (⟨S100000, .i1⟩ : BufTy).Contents (Elt F)),
    unary main_v12 main_v30 (Host.rsqrt : (⟨S100000, .f32⟩ : BufTy).Contents (Elt F) → (⟨S100000, .f32⟩ : BufTy).Contents (Elt F)),
    nullary main_cst_6 (constant S_ .f32 0x00000000#32),
    unary main_cst_6 main_call1_v0 (id : (⟨S_, .f32⟩ : BufTy).Contents (Elt F) → (⟨S_, .f32⟩ : BufTy).Contents (Elt F)),
    unary main_call1_v0 main_call1_v1 ((broadcastInDim S100000 ![] bcast_S_S100000) : (⟨S_, .f32⟩ : BufTy).Contents (Elt F) → (⟨S100000, .f32⟩ : BufTy).Contents (Elt F)),
    ternary main_v29 main_v30 main_call1_v1 main_v31 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c_7 (constantI S_ 32 0#32),
    unary main_c_7 main_v32 (broadcastInDim S1700000 ![] bcast_S_S1700000 : (⟨S_, .i32⟩ : BufTy).Contents (Elt F) → (⟨S1700000, .i32⟩ : BufTy).Contents (Elt F)),
    binary main_v7 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v34 (broadcastInDim S1700000 ![] bcast_S_S1700000 : (⟨S_, .i32⟩ : BufTy).Contents (Elt F) → (⟨S1700000, .i32⟩ : BufTy).Contents (Elt F)),
    binary main_v7 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v7 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v38 main_v39 (mulf : (⟨S1700000, .f32⟩ : BufTy).Contents (Elt F) → (⟨S1700000, .f32⟩ : BufTy).Contents (Elt F) → (⟨S1700000, .f32⟩ : BufTy).Contents (Elt F)),
    unary main_arg2 main_v40 ((transpose S256x128 [1, 0] · transposes_S128x256_S256x128_1_0) : (⟨S128x256, .f32⟩ : BufTy).Contents (Elt F) → (⟨S256x128, .f32⟩ : BufTy).Contents (Elt F)),
    binary main_arg0 main_v40 main_v41 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_9 (constantI S_ 32 0#32),
    unary main_c_9 main_v42 (broadcastInDim S1700000 ![] bcast_S_S1700000 : (⟨S_, .i32⟩ : BufTy).Contents (Elt F) → (⟨S1700000, .i32⟩ : BufTy).Contents (Elt F)),
    binary main_v9 main_v42 main_v43 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v44 (broadcastInDim S1700000 ![] bcast_S_S1700000 : (⟨S_, .i32⟩ : BufTy).Contents (Elt F) → (⟨S1700000, .i32⟩ : BufTy).Contents (Elt F)),
    binary main_v9 main_v44 main_v45 (addi : (⟨S1700000, .i32⟩ : BufTy).Contents (Elt F) → (⟨S1700000, .i32⟩ : BufTy).Contents (Elt F) → (⟨S1700000, .i32⟩ : BufTy).Contents (Elt F)),
    ternary main_v43 main_v45 main_v9 main_v46 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v46 main_v47 (broadcastInDim S1700000x1 ![0] bcast_S1700000_S1700000x1_0 : (⟨S1700000, .i32⟩ : BufTy).Contents (Elt F) → (⟨S1700000x1, .i32⟩ : BufTy).Contents (Elt F)),
    binary main_v41 main_v47 main_v48 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v39 main_v49 (broadcastInDim S1700000x1 ![0] bcast_S1700000_S1700000x1_0 : (⟨S1700000, .f32⟩ : BufTy).Contents (Elt F) → (⟨S1700000x1, .f32⟩ : BufTy).Contents (Elt F)),
    unary main_v49 main_v50 (broadcastInDim S1700000x128 ![0, 1] bcast_S1700000x1_S1700000x128_0_1 : (⟨S1700000x1, .f32⟩ : BufTy).Contents (Elt F) → (⟨S1700000x128, .f32⟩ : BufTy).Contents (Elt F)),
    binary main_v48 main_v50 main_v51 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v52 (broadcastInDim S100000x128 ![] bcast_S_S100000x128 : (⟨S_, .f32⟩ : BufTy).Contents (Elt F) → (⟨S100000x128, .f32⟩ : BufTy).Contents (Elt F)),
    unary main_v7 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v55 ((transpose S256x128 [1, 0] · transposes_S128x256_S256x128_1_0) : (⟨S128x256, .f32⟩ : BufTy).Contents (Elt F) → (⟨S256x128, .f32⟩ : BufTy).Contents (Elt F)),
    binary main_arg0 main_v55 main_v56 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_12 (constantI S_ 32 0#32),
    unary main_c_12 main_v57 (broadcastInDim S1700000 ![] bcast_S_S1700000 : (⟨S_, .i32⟩ : BufTy).Contents (Elt F) → (⟨S1700000, .i32⟩ : BufTy).Contents (Elt F)),
    binary main_v7 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v59 (broadcastInDim S1700000 ![] bcast_S_S1700000 : (⟨S_, .i32⟩ : BufTy).Contents (Elt F) → (⟨S1700000, .i32⟩ : BufTy).Contents (Elt F)),
    binary main_v7 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v7 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v39 main_v64 (broadcastInDim S1700000x1 ![0] bcast_S1700000_S1700000x1_0 : (⟨S1700000, .f32⟩ : BufTy).Contents (Elt F) → (⟨S1700000x1, .f32⟩ : BufTy).Contents (Elt F)),
    unary main_v64 main_v65 (broadcastInDim S1700000x128 ![0, 1] bcast_S1700000x1_S1700000x128_0_1 : (⟨S1700000x1, .f32⟩ : BufTy).Contents (Elt F) → (⟨S1700000x128, .f32⟩ : BufTy).Contents (Elt F)),
    binary main_v63 main_v65 main_v66 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v67 (broadcastInDim S100000x128 ![] bcast_S_S100000x128 : (⟨S_, .f32⟩ : BufTy).Contents (Elt F) → (⟨S100000x128, .f32⟩ : BufTy).Contents (Elt F)),
    unary main_v9 main_v68 (broadcastInDim S1700000x1 ![0] bcast_S1700000_S1700000x1_0 : (⟨S1700000, .i32⟩ : BufTy).Contents (Elt F) → (⟨S1700000x1, .i32⟩ : BufTy).Contents (Elt F)),
    ternary main_v67 main_v68 main_v66 main_v69 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    binary main_v54 main_v69 main_v70 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg4 main_v71 (broadcastInDim S1x256 ![1] bcast_S256_S1x256_1 : (⟨S256, .f32⟩ : BufTy).Contents (Elt F) → (⟨S1x256, .f32⟩ : BufTy).Contents (Elt F)),
    unary main_v71 main_v72 (broadcastInDim S100000x256 ![0, 1] bcast_S1x256_S100000x256_0_1 : (⟨S1x256, .f32⟩ : BufTy).Contents (Elt F) → (⟨S100000x256, .f32⟩ : BufTy).Contents (Elt F)),
    binary main_v70 main_v72 main_v73 (addf : (⟨S100000x256, .f32⟩ : BufTy).Contents (Elt F) → (⟨S100000x256, .f32⟩ : BufTy).Contents (Elt F) → (⟨S100000x256, .f32⟩ : BufTy).Contents (Elt F)) ]

/-- The first 55: the edge list, the endpoint and degree vectors, the edge weights. -/
abbrev opsA : List (HloOp τ sig (Elt F)) :=
  [ nullary main_v0 (iotaInDim S100000 32 0),
    unary main_v0 main_v1 (broadcastInDim S1x100000 ![1] bcast_S100000_S1x100000_1 : (⟨S100000, .i32⟩ : BufTy).Contents (Elt F) → (⟨S1x100000, .i32⟩ : BufTy).Contents (Elt F)),
    unary main_v0 main_v2 (broadcastInDim S1x100000 ![1] bcast_S100000_S1x100000_1 : (⟨S100000, .i32⟩ : BufTy).Contents (Elt F) → (⟨S1x100000, .i32⟩ : BufTy).Contents (Elt F)),
    binary main_v1 main_v2 main_v3 ((fun a b => concatenate S2x100000 0 [⟨S1x100000, a⟩, ⟨S1x100000, b⟩] concatenates_S1x100000_S1x100000_S2x100000_d0) : (⟨S1x100000, .i32⟩ : BufTy).Contents (Elt F) → (⟨S1x100000, .i32⟩ : BufTy).Contents (Elt F) → (⟨S2x100000, .i32⟩ : BufTy).Contents (Elt F)),
    binary main_arg1 main_v3 main_v4 ((fun a b => concatenate S2x1700000 1 [⟨S2x1600000, a⟩, ⟨S2x100000, b⟩] concatenates_S2x1600000_S2x100000_S2x1700000_d1) : (⟨S2x1600000, .i32⟩ : BufTy).Contents (Elt F) → (⟨S2x100000, .i32⟩ : BufTy).Contents (Elt F) → (⟨S2x1700000, .i32⟩ : BufTy).Contents (Elt F)),
    nullary main_cst (constant S_ .f32 0x3F800000#32),
    unary main_cst main_v5 (broadcastInDim S1700000 ![] bcast_S_S1700000 : (⟨S_, .f32⟩ : BufTy).Contents (Elt F) → (⟨S1700000, .f32⟩ : BufTy).Contents (Elt F)),
    unary main_v4 main_v6 ((extractStridedSlice S1x1700000 ![0, 0] · slices_S2x1700000_S1x1700000_0_0) : (⟨S2x1700000, .i32⟩ : BufTy).Contents (Elt F) → (⟨S1x1700000, .i32⟩ : BufTy).Contents (Elt F)),
    reshape main_v6 main_v7 rfl shapeCasts_S1x1700000_S1700000,
    unary main_v4 main_v8 ((extractStridedSlice S1x1700000 ![1, 0] · slices_S2x1700000_S1x1700000_1_0) : (⟨S2x1700000, .i32⟩ : BufTy).Contents (Elt F) → (⟨S1x1700000, .i32⟩ : BufTy).Contents (Elt F)),
    reshape main_v8 main_v9 rfl shapeCasts_S1x1700000_S1700000,
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v5 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    unary main_v9 main_v14 (broadcastInDim S1700000x1 ![0] bcast_S1700000_S1700000x1_0 : (⟨S1700000, .i32⟩ : BufTy).Contents (Elt F) → (⟨S1700000x1, .i32⟩ : BufTy).Contents (Elt F)),
    ternary main_v13 main_v14 main_v5 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    unary main_v15 main_v18 (Host.rsqrt : (⟨S100000, .f32⟩ : BufTy).Contents (Elt F) → (⟨S100000, .f32⟩ : BufTy).Contents (Elt F)),
    nullary main_cst_3 (constant S_ .f32 0x00000000#32),
    unary main_cst_3 main_call0_v0 (id : (⟨S_, .f32⟩ : BufTy).Contents (Elt F) → (⟨S_, .f32⟩ : BufTy).Contents (Elt F)),
    unary main_call0_v0 main_call0_v1 ((broadcastInDim S100000 ![] bcast_S_S100000) : (⟨S_, .f32⟩ : BufTy).Contents (Elt F) → (⟨S100000, .f32⟩ : BufTy).Contents (Elt F)),
    ternary main_v17 main_v18 main_call0_v1 main_v19 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v20 (broadcastInDim S1700000 ![] bcast_S_S1700000 : (⟨S_, .i32⟩ : BufTy).Contents (Elt F) → (⟨S1700000, .i32⟩ : BufTy).Contents (Elt F)),
    binary main_v9 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v22 (broadcastInDim S1700000 ![] bcast_S_S1700000 : (⟨S_, .i32⟩ : BufTy).Contents (Elt F) → (⟨S1700000, .i32⟩ : BufTy).Contents (Elt F)),
    binary main_v9 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v9 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v5 main_v27 (mulf : (⟨S1700000, .f32⟩ : BufTy).Contents (Elt F) → (⟨S1700000, .f32⟩ : BufTy).Contents (Elt F) → (⟨S1700000, .f32⟩ : BufTy).Contents (Elt F)),
    nullary main_cst_5 (constant S_ .f32 0x00000000#32),
    unary main_cst_5 main_v28 (broadcastInDim S100000 ![] bcast_S_S100000 : (⟨S_, .f32⟩ : BufTy).Contents (Elt F) → (⟨S100000, .f32⟩ : BufTy).Contents (Elt F)),
    binary main_v12 main_v28 main_v29 (cmpf .ogt : (⟨S100000, .f32⟩ : BufTy).Contents (Elt F) → (⟨S100000, .f32⟩ : BufTy).Contents (Elt F) → (⟨S100000, .i1⟩ : BufTy).Contents (Elt F)),
    unary main_v12 main_v30 (Host.rsqrt : (⟨S100000, .f32⟩ : BufTy).Contents (Elt F) → (⟨S100000, .f32⟩ : BufTy).Contents (Elt F)),
    nullary main_cst_6 (constant S_ .f32 0x00000000#32),
    unary main_cst_6 main_call1_v0 (id : (⟨S_, .f32⟩ : BufTy).Contents (Elt F) → (⟨S_, .f32⟩ : BufTy).Contents (Elt F)),
    unary main_call1_v0 main_call1_v1 ((broadcastInDim S100000 ![] bcast_S_S100000) : (⟨S_, .f32⟩ : BufTy).Contents (Elt F) → (⟨S100000, .f32⟩ : BufTy).Contents (Elt F)),
    ternary main_v29 main_v30 main_call1_v1 main_v31 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c_7 (constantI S_ 32 0#32),
    unary main_c_7 main_v32 (broadcastInDim S1700000 ![] bcast_S_S1700000 : (⟨S_, .i32⟩ : BufTy).Contents (Elt F) → (⟨S1700000, .i32⟩ : BufTy).Contents (Elt F)),
    binary main_v7 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v34 (broadcastInDim S1700000 ![] bcast_S_S1700000 : (⟨S_, .i32⟩ : BufTy).Contents (Elt F) → (⟨S1700000, .i32⟩ : BufTy).Contents (Elt F)),
    binary main_v7 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v7 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v27 main_v38 main_v39 (mulf : (⟨S1700000, .f32⟩ : BufTy).Contents (Elt F) → (⟨S1700000, .f32⟩ : BufTy).Contents (Elt F) → (⟨S1700000, .f32⟩ : BufTy).Contents (Elt F)) ]

/-- The last 40: the two projected tables, their aggregation along the edges, the bias. -/
abbrev opsB : List (HloOp τ sig (Elt F)) :=
  [ unary main_arg2 main_v40 ((transpose S256x128 [1, 0] · transposes_S128x256_S256x128_1_0) : (⟨S128x256, .f32⟩ : BufTy).Contents (Elt F) → (⟨S256x128, .f32⟩ : BufTy).Contents (Elt F)),
    binary main_arg0 main_v40 main_v41 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_9 (constantI S_ 32 0#32),
    unary main_c_9 main_v42 (broadcastInDim S1700000 ![] bcast_S_S1700000 : (⟨S_, .i32⟩ : BufTy).Contents (Elt F) → (⟨S1700000, .i32⟩ : BufTy).Contents (Elt F)),
    binary main_v9 main_v42 main_v43 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v44 (broadcastInDim S1700000 ![] bcast_S_S1700000 : (⟨S_, .i32⟩ : BufTy).Contents (Elt F) → (⟨S1700000, .i32⟩ : BufTy).Contents (Elt F)),
    binary main_v9 main_v44 main_v45 (addi : (⟨S1700000, .i32⟩ : BufTy).Contents (Elt F) → (⟨S1700000, .i32⟩ : BufTy).Contents (Elt F) → (⟨S1700000, .i32⟩ : BufTy).Contents (Elt F)),
    ternary main_v43 main_v45 main_v9 main_v46 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v46 main_v47 (broadcastInDim S1700000x1 ![0] bcast_S1700000_S1700000x1_0 : (⟨S1700000, .i32⟩ : BufTy).Contents (Elt F) → (⟨S1700000x1, .i32⟩ : BufTy).Contents (Elt F)),
    binary main_v41 main_v47 main_v48 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v39 main_v49 (broadcastInDim S1700000x1 ![0] bcast_S1700000_S1700000x1_0 : (⟨S1700000, .f32⟩ : BufTy).Contents (Elt F) → (⟨S1700000x1, .f32⟩ : BufTy).Contents (Elt F)),
    unary main_v49 main_v50 (broadcastInDim S1700000x128 ![0, 1] bcast_S1700000x1_S1700000x128_0_1 : (⟨S1700000x1, .f32⟩ : BufTy).Contents (Elt F) → (⟨S1700000x128, .f32⟩ : BufTy).Contents (Elt F)),
    binary main_v48 main_v50 main_v51 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v52 (broadcastInDim S100000x128 ![] bcast_S_S100000x128 : (⟨S_, .f32⟩ : BufTy).Contents (Elt F) → (⟨S100000x128, .f32⟩ : BufTy).Contents (Elt F)),
    unary main_v7 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v55 ((transpose S256x128 [1, 0] · transposes_S128x256_S256x128_1_0) : (⟨S128x256, .f32⟩ : BufTy).Contents (Elt F) → (⟨S256x128, .f32⟩ : BufTy).Contents (Elt F)),
    binary main_arg0 main_v55 main_v56 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_12 (constantI S_ 32 0#32),
    unary main_c_12 main_v57 (broadcastInDim S1700000 ![] bcast_S_S1700000 : (⟨S_, .i32⟩ : BufTy).Contents (Elt F) → (⟨S1700000, .i32⟩ : BufTy).Contents (Elt F)),
    binary main_v7 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v59 (broadcastInDim S1700000 ![] bcast_S_S1700000 : (⟨S_, .i32⟩ : BufTy).Contents (Elt F) → (⟨S1700000, .i32⟩ : BufTy).Contents (Elt F)),
    binary main_v7 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v7 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v39 main_v64 (broadcastInDim S1700000x1 ![0] bcast_S1700000_S1700000x1_0 : (⟨S1700000, .f32⟩ : BufTy).Contents (Elt F) → (⟨S1700000x1, .f32⟩ : BufTy).Contents (Elt F)),
    unary main_v64 main_v65 (broadcastInDim S1700000x128 ![0, 1] bcast_S1700000x1_S1700000x128_0_1 : (⟨S1700000x1, .f32⟩ : BufTy).Contents (Elt F) → (⟨S1700000x128, .f32⟩ : BufTy).Contents (Elt F)),
    binary main_v63 main_v65 main_v66 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v67 (broadcastInDim S100000x128 ![] bcast_S_S100000x128 : (⟨S_, .f32⟩ : BufTy).Contents (Elt F) → (⟨S100000x128, .f32⟩ : BufTy).Contents (Elt F)),
    unary main_v9 main_v68 (broadcastInDim S1700000x1 ![0] bcast_S1700000_S1700000x1_0 : (⟨S1700000, .i32⟩ : BufTy).Contents (Elt F) → (⟨S1700000x1, .i32⟩ : BufTy).Contents (Elt F)),
    ternary main_v67 main_v68 main_v66 main_v69 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    binary main_v54 main_v69 main_v70 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg4 main_v71 (broadcastInDim S1x256 ![1] bcast_S256_S1x256_1 : (⟨S256, .f32⟩ : BufTy).Contents (Elt F) → (⟨S1x256, .f32⟩ : BufTy).Contents (Elt F)),
    unary main_v71 main_v72 (broadcastInDim S100000x256 ![0, 1] bcast_S1x256_S100000x256_0_1 : (⟨S1x256, .f32⟩ : BufTy).Contents (Elt F) → (⟨S100000x256, .f32⟩ : BufTy).Contents (Elt F)),
    binary main_v70 main_v72 main_v73 (addf : (⟨S100000x256, .f32⟩ : BufTy).Contents (Elt F) → (⟨S100000x256, .f32⟩ : BufTy).Contents (Elt F) → (⟨S100000x256, .f32⟩ : BufTy).Contents (Elt F)) ]

theorem ops_split : (ops : List (HloOp τ sig (Elt F))) = opsA ++ opsB := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., binary_bufs_sub .., binary_bufs_sub .., nullary_bufs_sub .., unary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub ..⟩

/-- The projected table `x · Wᵀ` as the reference forms it: the weight matrix transposed, then one matrix product. -/
def projected (x0 : (⟨S100000x256, .f32⟩ : BufTy).Contents (Elt F)) (w : (⟨S128x256, .f32⟩ : BufTy).Contents (Elt F)) : (⟨S100000x128, .f32⟩ : BufTy).Contents (Elt F) :=
  Host.dotGeneral dot_S100000x256_S256x128_S100000x128_1_0_0_1_n_n none x0 (transpose S256x128 [1, 0] w transposes_S128x256_S256x128_1_0)

/-! ## The first part, from any contents of the buffers -/

section PartA
variable (V : Valuation τ sig (Elt F))

set_option maxHeartbeats 4000000 in
theorem partA_endpoint0 : (after (opsA (F := F)) V (Proc.devRef .tc main_v7) : (⟨S1700000, .i32⟩ : BufTy).Contents (Elt F))
    = Cert.EdgeSpec.endpoint0 (F := F) (V (Proc.devRef .tc main_arg1)) := by
  after_results_simp
  rfl

set_option maxHeartbeats 4000000 in
theorem partA_endpoint1 : (after (opsA (F := F)) V (Proc.devRef .tc main_v9) : (⟨S1700000, .i32⟩ : BufTy).Contents (Elt F))
    = Cert.EdgeSpec.endpoint1 (F := F) (V (Proc.devRef .tc main_arg1)) := by
  after_results_simp
  rfl

set_option maxHeartbeats 40000000 in
theorem partA_edgeWeight : (after (opsA (F := F)) V (Proc.devRef .tc main_v39) : (⟨S1700000, .f32⟩ : BufTy).Contents (Elt F))
    = Cert.EdgeSpec.edgeWeightOf (F := F) (Cert.EdgeSpec.endpoint0 (F := F) (V (Proc.devRef .tc main_arg1)))
        (Cert.EdgeSpec.endpoint1 (F := F) (V (Proc.devRef .tc main_arg1))) := by
  after_results_simp
  unfold Cert.EdgeSpec.edgeWeightOf Cert.EdgeSpec.invSqrt Cert.EdgeSpec.degree Cert.EdgeSpec.wrapIndex Cert.EdgeSpec.startColumn
    Cert.EdgeSpec.unitWeights Cert.EdgeSpec.endpoint0 Cert.EdgeSpec.endpoint1 Cert.EdgeSpec.edges
  rfl

set_option maxHeartbeats 4000000 in
theorem partA_arg0 : after (opsA (F := F)) V (Proc.devRef .tc main_arg0) = V (Proc.devRef .tc main_arg0) := by
  after_results_simp
set_option maxHeartbeats 4000000 in
theorem partA_arg2 : after (opsA (F := F)) V (Proc.devRef .tc main_arg2) = V (Proc.devRef .tc main_arg2) := by
  after_results_simp
set_option maxHeartbeats 4000000 in
theorem partA_arg3 : after (opsA (F := F)) V (Proc.devRef .tc main_arg3) = V (Proc.devRef .tc main_arg3) := by
  after_results_simp
set_option maxHeartbeats 4000000 in
theorem partA_arg4 : after (opsA (F := F)) V (Proc.devRef .tc main_arg4) = V (Proc.devRef .tc main_arg4) := by
  after_results_simp

end PartA

/-! ## The second part, from any contents of the buffers -/

set_option maxHeartbeats 40000000 in
theorem partB (W : Valuation τ sig (Elt F)) :
    (after (opsB (F := F)) W (Proc.devRef .tc main_v73) : (⟨S100000x256, .f32⟩ : BufTy).Contents (Elt F))
      = Cert.EdgeSpec.outputOf (F := F) (projected (F := F) (W (Proc.devRef .tc main_arg0)) (W (Proc.devRef .tc main_arg2)))
          (projected (F := F) (W (Proc.devRef .tc main_arg0)) (W (Proc.devRef .tc main_arg3)))
          (W (Proc.devRef .tc main_v7)) (W (Proc.devRef .tc main_v9)) (W (Proc.devRef .tc main_v39)) (W (Proc.devRef .tc main_arg4)) := by
  after_results_simp
  unfold Cert.EdgeSpec.outputOf Cert.EdgeSpec.aggregate Cert.EdgeSpec.wrapIndex Cert.EdgeSpec.startColumn projected
  rfl

/-! ## The run -/

/-- The result buffer after the operations, as a function of the five argument arrays. -/
def result (m : (ℓ : Loc nD τ sig) → Buf (Elt F) ℓ) (c : Dev nD) : Buf (Elt F) ((c.tc : Thread nD τ).loc main_v73) :=
  Cert.EdgeSpec.output (F := F)
    (projected (F := F) (m ((c.tc : Thread nD τ).loc main_arg0)) (m ((c.tc : Thread nD τ).loc main_arg2)))
    (projected (F := F) (m ((c.tc : Thread nD τ).loc main_arg0)) (m ((c.tc : Thread nD τ).loc main_arg3)))
    (m ((c.tc : Thread nD τ).loc main_arg1)) (m ((c.tc : Thread nD τ).loc main_arg4))

/-- The 95 operations from any contents leave `EdgeSpec.output` of the contents' argument arrays in the result buffer. -/
theorem after_result (V : Valuation τ sig (Elt F)) :
    (after (ops (F := F)) V (Proc.devRef .tc main_v73) : (⟨S100000x256, .f32⟩ : BufTy).Contents (Elt F))
      = Cert.EdgeSpec.output (F := F) (projected (F := F) (V (Proc.devRef .tc main_arg0)) (V (Proc.devRef .tc main_arg2)))
          (projected (F := F) (V (Proc.devRef .tc main_arg0)) (V (Proc.devRef .tc main_arg3)))
          (V (Proc.devRef .tc main_arg1)) (V (Proc.devRef .tc main_arg4)) := by
  rw [ops_split, StableHlo.after_append, partB, partA_endpoint0, partA_endpoint1, partA_edgeWeight, partA_arg0, partA_arg2,
    partA_arg3, partA_arg4]
  rfl

set_option maxRecDepth 8192 in
set_option maxHeartbeats 40000000 in
/-- On every device, for any float values, from any memory with zero counters: every weakly fair execution of the
    reference terminates with the result buffer at `result` and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v73).trans ((after_result (launchContents m c)).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.RefRun

end
-- ==== Proof.KernelHost.lean ====
/-
  The kernel program's host operations, read back.

  Before the region the kernel program builds the same edge list, degree vectors and edge weights as the reference, and
  the weight array the region multiplies by: the two `[128, 256]` weight matrices one above the other, transposed
  (`[256, 256]`, column `q` holding row `q` of `W_f` for `q < 128` and row `q - 128` of `W_b` from 128 on).  After the
  region it cuts the region's `[100000, 256]` output into its left and right halves of 128 columns and aggregates those
  along the edges exactly as `EdgeSpec.outputOf` does; the one extra operation, a widening of the gathered rows from
  bf16 to f32, is the identity over the extended reals.
-/
import proofs.«167315_j34772055229049_2_alg».proof.Proof.Gen.KernelIdeal.Frame
import proofs.«167315_j34772055229049_2_alg».proof.Proof.Gen.ReferenceIdeal
import proofs.«167315_j34772055229049_2_alg».proof.Proof.EdgeSpec
import Idealize.ShloMosaic.Lib.StableHlo.Run
import Idealize.ShloMosaic.PureOps.Ideal

set_option maxRecDepth 16384

noncomputable section

namespace Cert.KernelHost

open Cert.KernelIdeal Cert.KernelIdeal.Gen Idealize.ShloMosaic Idealize.ShloMosaic.TcCoe Idealize.SL.Sem Idealize.ShloMosaic.StableHlo

/-- The weight array the region is launched with: `W_f` above `W_b`, transposed. -/
def weights (x2 x3 : S128x256.Idx → EReal) : S256x256.Idx → EReal :=
  transpose S256x256 [1, 0] (concatenate S256x256 0 [⟨S128x256, x2⟩, ⟨S128x256, x3⟩] concatenates_S128x256_S128x256_S256x256_d0) transposes_S256x256_S256x256_1_0

/-- The left 128 columns of a `[100000, 256]` array. -/
def leftHalf (A : S100000x256.Idx → EReal) : S100000x128.Idx → EReal :=
  extractStridedSlice S100000x128 ![0, 0] A slices_S100000x256_S100000x128_0_0

/-- The right 128 columns of a `[100000, 256]` array. -/
def rightHalf (A : S100000x256.Idx → EReal) : S100000x128.Idx → EReal :=
  extractStridedSlice S100000x128 ![0, 128] A slices_S100000x256_S100000x128_0_128

/-- The three operations of the first call of the outlined `where` (zero where the condition fails), spelled over the
    plain references: at literal references the typed spelling only moves contents along an identity of types. -/
theorem where0_plain : (hostOps0_1 (F := Ideal)) =
    [ StableHlo.unary main_cst_3 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v17 main_v18 main_call0_v1 main_v19 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-- The same for the second call. -/
theorem where1_plain : (hostOps0_3 (F := Ideal)) =
    [ StableHlo.unary main_cst_5 main_call1_v0 (id : (⟨S_, .f32⟩ : BufTy).Contents (Elt Ideal) → (⟨S_, .f32⟩ : BufTy).Contents (Elt Ideal)),
      StableHlo.unary main_call1_v0 main_call1_v1 (broadcastInDim S100000 ![] bcast_S_S100000 : (⟨S_, .f32⟩ : BufTy).Contents (Elt Ideal) → (⟨S100000, .f32⟩ : BufTy).Contents (Elt Ideal)),
      StableHlo.ternary main_v21 main_v22 main_call1_v1 main_v23 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

variable (m : (ℓ : Loc nD τ sig) → Buf (Elt Ideal) ℓ)

set_option maxHeartbeats 4000000 in
/-- The region finds the weight array at `weights` of the two weight arguments. -/
theorem V_weights (c : Dev nD) :
    (V m c main_v41 : S256x256.Idx → EReal) = weights (m ((c : Thread nD τ).loc main_arg2)) (m ((c : Thread nD τ).loc main_arg3)) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The first endpoint vector as the host operations before the region leave it. -/
theorem V_endpoint0 (c : Dev nD) :
    (V m c main_v6 : S1700000.Idx → BitVec 32) = Cert.EdgeSpec.endpoint0 (F := Ideal) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 4000000 in
/-- The second endpoint vector. -/
theorem V_endpoint1 (c : Dev nD) :
    (V m c main_v8 : S1700000.Idx → BitVec 32) = Cert.EdgeSpec.endpoint1 (F := Ideal) (m ((c : Thread nD τ).loc main_arg1)) := by
  dsimp only [V, V0]
  simp only [hostOps0, hostOps0_1, hostOps0_2, hostOps0_3, hostOps0_4, List.flatten_cons, List.flatten_nil, List.append_nil, List.cons_append, List.nil_append]
  after_results_simp
  rfl

set_option maxHeartbeats 40000000 in
/-- The edge weights. -/
theorem V_edgeWeight (c : Dev nD) :
    (V m c main_v39 : S1700000.Idx → EReal) = Cert.EdgeSpec.edgeWeightOf (F := Ideal)
      (Cert.EdgeSpec.endpoint0 (F := Ideal) (m ((c : Thread nD τ).loc main_arg1)))
      (Cert.EdgeSpec.endpoint1 (F := Ideal) (m ((c : Thread nD τ).loc main_arg1))) := by
  dsimp only [V, V0]
  rw [where0_plain, where1_plain]
  simp only [hostOps0, hostOps0_2, hostOps0_4, List.flatten_cons, List.flatten_nil, List.append_nil, List.cons_append, List.nil_append]
  after_results_simp
  unfold Cert.EdgeSpec.edgeWeightOf Cert.EdgeSpec.invSqrt Cert.EdgeSpec.degree Cert.EdgeSpec.wrapIndex Cert.EdgeSpec.startColumn
    Cert.EdgeSpec.unitWeights Cert.EdgeSpec.endpoint0 Cert.EdgeSpec.endpoint1 Cert.EdgeSpec.edges
  rfl

set_option maxHeartbeats 40000000 in
/-- The operations after the region, from any contents of the buffers they read: `outputOf` of the two halves of the
    region's output, the endpoint vectors, the edge weights and the bias. -/
theorem tail_eval (W : Valuation τ sig (Elt Ideal)) :
    StableHlo.after (hostOps1 (F := Ideal)) W (Proc.devRef .tc main_v76)
      = Cert.EdgeSpec.outputOf (F := Ideal) (leftHalf (W (Proc.devRef .tc main_v42))) (rightHalf (W (Proc.devRef .tc main_v42)))
          (W (Proc.devRef .tc main_v6)) (W (Proc.devRef .tc main_v8)) (W (Proc.devRef .tc main_v39)) (W (Proc.devRef .tc main_arg4)) := by
  after_results_simp
  unfold Cert.EdgeSpec.outputOf Cert.EdgeSpec.aggregate Cert.EdgeSpec.wrapIndex Cert.EdgeSpec.startColumn leftHalf rightHalf
  rfl

end Cert.KernelHost

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibPlainDot.lean ====
/-
  A plain matrix product read at an entry.

  A product of an [M, K] array with a [K, N] array that contracts the left operand's second axis with the right
  operand's first axis and has no batch axis: the sum over its one-axis contraction index, read at the output entry
  (p, q), is the textbook sum over i of the left operand at (p, i) times the right operand at (i, q).
-/
import Idealize.ShloMosaic.PureOps.Ideal
import Idealize.ShloMosaic.PureOps.Ideal.Laws
import Idealize.ShloMosaic.Lib.ValueIdx
import proofs.«167315_j34772055229049_2_alg».proof.Proof.LibDotSum

noncomputable section

namespace Cert.LibPlainDot

open Idealize.ShloMosaic Idealize.ShloMosaic.ValueIdx

variable {M K N : ℕ} (D : DotDims ⟨2, ![M, K]⟩ ⟨2, ![K, N]⟩ ⟨2, ![M, N]⟩)

/-- One axis is contracted. -/
theorem rank_contr_one (hlc : D.lhsContracting = [1]) : D.contr.rank = 1 := by
  rw [D.rank_contr, hlc]; rfl

/-- Its extent is the left operand's second extent. -/
theorem size_contr_K (hlc : D.lhsContracting = [1]) :
    D.contr.size ⟨0, by rw [rank_contr_one D hlc]; exact Nat.one_pos⟩ = K := by
  have h := D.size_contr 0 (by rw [hlc]; exact Nat.one_pos)
  rw [h]
  simp only [hlc, List.getElem_cons_zero]
  rfl

/-- The left operand's index at output entry (p, q) and contraction position i is (p, i). -/
theorem lhsIdx_eq (hlc : D.lhsContracting = [1]) (hlb : D.lhsBatch = []) (hln : D.lhsNonContracting = [0])
    (p : Fin M) (q : Fin N) (i : Fin K) :
    D.lhsIdx (ix2 p q) ((contrEquiv1 D K (rank_contr_one D hlc) (size_contr_K D hlc)).symm i) = ix2 p i := by
  funext a
  apply Fin.ext
  match a with
  | ⟨0, _⟩ =>
    unfold DotDims.lhsIdx
    have hb : (⟨0, by decide⟩ : Fin 2) ∉ D.lhsBatch := by rw [hlb]; exact List.not_mem_nil
    have hn : (⟨0, by decide⟩ : Fin 2) ∈ D.lhsNonContracting := by rw [hln]; exact List.mem_singleton.mpr rfl
    rw [dif_neg hb, dif_pos hn]
    simp only [Fin.val_cast]
    have key : ∀ (u : ℕ) (hu : u < 2), u = 0 → ((ix2 p q : (⟨2, ![M, N]⟩ : Shape).Idx) ⟨u, hu⟩).val = p.val :=
      fun u hu h => by subst h; rfl
    exact key _ _ (by simp [hlb, hln])
  | ⟨1, _⟩ =>
    have h := D.lhsIdx_val_of_single (cl := (1 : Fin 2)) hlc (ix2 p q)
      ((contrEquiv1 D K (rank_contr_one D hlc) (size_contr_K D hlc)).symm i)
    refine h.trans ?_
    exact contrEquiv1_symm_val D K (rank_contr_one D hlc) (size_contr_K D hlc) i

/-- The right operand's index at output entry (p, q) and contraction position i is (i, q). -/
theorem rhsIdx_eq (hlc : D.lhsContracting = [1]) (hrc : D.rhsContracting = [0]) (hlb : D.lhsBatch = [])
    (hrb : D.rhsBatch = []) (hln : D.lhsNonContracting = [0]) (hrn : D.rhsNonContracting = [1])
    (p : Fin M) (q : Fin N) (i : Fin K) :
    D.rhsIdx (ix2 p q) ((contrEquiv1 D K (rank_contr_one D hlc) (size_contr_K D hlc)).symm i) = ix2 i q := by
  funext a
  apply Fin.ext
  match a with
  | ⟨0, _⟩ =>
    have h := D.rhsIdx_val_of_single (cr := (0 : Fin 2)) hrc (ix2 p q)
      ((contrEquiv1 D K (rank_contr_one D hlc) (size_contr_K D hlc)).symm i)
    refine h.trans ?_
    exact contrEquiv1_symm_val D K (rank_contr_one D hlc) (size_contr_K D hlc) i
  | ⟨1, _⟩ =>
    unfold DotDims.rhsIdx
    have hb : (⟨1, by decide⟩ : Fin 2) ∉ D.rhsBatch := by rw [hrb]; exact List.not_mem_nil
    have hn : (⟨1, by decide⟩ : Fin 2) ∈ D.rhsNonContracting := by rw [hrn]; exact List.mem_singleton.mpr rfl
    rw [dif_neg hb, dif_pos hn]
    simp only [Fin.val_cast]
    have key : ∀ (u : ℕ) (hu : u < 2), u = 1 → ((ix2 p q : (⟨2, ![M, N]⟩ : Shape).Idx) ⟨u, hu⟩).val = q.val :=
      fun u hu h => by subst h; rfl
    exact key _ _ (by simp [hlb, hln, hrn])

/-- The product's sum at entry (p, q) is the sum over i of left (p, i) times right (i, q). -/
theorem sum_plain (hlc : D.lhsContracting = [1]) (hrc : D.rhsContracting = [0]) (hlb : D.lhsBatch = [])
    (hrb : D.rhsBatch = []) (hln : D.lhsNonContracting = [0]) (hrn : D.rhsNonContracting = [1])
    (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = ∑ i : Fin K, f (ix2 p i) * g (ix2 i q) :=
  Cert.LibDotSum.sum_contr_eq D K (rank_contr_one D hlc) (size_contr_K D hlc) f g (ix2 p q)
    (fun i => f (ix2 p i)) (fun i => g (ix2 i q))
    (fun i => congrArg f (lhsIdx_eq D hlc hlb hln p q i))
    (fun i => congrArg g (rhsIdx_eq D hlc hrc hlb hrb hln hrn p q i))

end Cert.LibPlainDot

end
-- ==== Proof.LibMatmulAnyFormat.lean ====
/-
  A plain matrix product accumulated into the zero array, read at an entry, for operands of any float formats.

  Over the extended reals a float's format carries no information, so the product of an [M, K] array with a
  [K, N] array, whatever the two formats, started from the array of zeros, holds at (p, q) the textbook sum over
  i of left (p, i) times right (i, q).
-/
import Idealize.ShloMosaic.PureOps.Ideal
import Idealize.ShloMosaic.PureOps.Ideal.Laws
import Idealize.ShloMosaic.Lib.ValueIdx
import proofs.«167315_j34772055229049_2_alg».proof.Proof.LibPlainDot

noncomputable section

open scoped BigOperators

namespace Cert.LibMatmulAnyFormat

open Idealize.ShloMosaic Idealize.ShloMosaic.ValueIdx

/-- A plain matrix product into the zero array at (p, q): the sum over i of left (p, i) times right (i, q), the
    operands' formats arbitrary. -/
theorem matmul_zero_entry {M K N : ℕ} {φ₁ φ₂ : FTy} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1]) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ i : Fin K, L (ix2 p i) * R (ix2 i q) :=
  (Ideal.matmul_constant_zero_apply D prec L R (ix2 p q)).trans
    (Cert.LibPlainDot.sum_plain D hlc hrc hlb hrb hln hrn L R p q)

end Cert.LibMatmulAnyFormat

end
-- ==== Proof.ProjBody.lean ====
/-
  The kernel body's arithmetic, read at an entry.

  At one grid point the body takes a block `x` of 4000 rows of the node features (`[4000, 256]`) and the whole
  `[256, 256]` weight array `w`, narrows both to bf16, multiplies them into an f32 accumulator started at zero and
  narrows the product to bf16.  Over the extended reals a change of float format is the identity, so what the body
  stores at row `p`, column `q` of its output block is the textbook sum over `i` of `x (p, i) · w (i, q)`.
-/
import proofs.«167315_j34772055229049_2_alg».proof.Proof.Gen.KernelIdeal.Skeleton
import proofs.«167315_j34772055229049_2_alg».proof.Proof.LibMatmulAnyFormat
import Idealize.ShloMosaic.Lib.Pipeline.Value
import Idealize.ShloMosaic.Lib.ValueIdx

noncomputable section

open scoped BigOperators

namespace Cert.ProjBody

open Cert.KernelIdeal Cert.KernelIdeal.Gen Idealize.ShloMosaic Idealize.ShloMosaic.TcCoe Idealize.ShloMosaic.ValueIdx

/-- Entry `(p, q)` of what the body stores: the sum over `i` of `x (p, i) · w (i, q)`. -/
theorem payload_entry (x : Vec Ideal S4000x256 .f32) (w : Vec Ideal S256x256 .f32) (p : Fin 4000) (q : Fin 256) :
    k0_pay1 (F := Ideal) x w (ix2 p q) = ∑ i : Fin 256, x (ix2 p i) * w (ix2 i q) := by
  unfold k0_pay1
  refine (Cert.LibMatmulAnyFormat.matmul_zero_entry dot_S4000x256_S256x256_S4000x256_1_0_0_1_n_n rfl rfl rfl rfl rfl rfl none
    (truncf .bf16 x bitsLt_bf16_f32) (truncf .bf16 (shapeCast S256x256 w shapeCasts_S256x256_S256x256) bitsLt_bf16_f32) p q).trans ?_
  refine Finset.sum_congr rfl fun i _ => ?_
  exact congrArg (fun v : S256x256.Idx → EReal => x (ix2 p i) * v (ix2 i q)) (shapeCast_self w shapeCasts_S256x256_S256x256)

end Cert.ProjBody

end
-- ==== Proof.LibDenseLayerEntry.lean ====
/-
  The operations of a dense layer, each read at one entry, over the extended reals.

  * A two-axis array transposed, read at (p, q), is the array at (q, p).
  * A plain matrix product [M, K] × [K, N] accumulated into the zero array, read at (p, q), is the textbook sum
    over i of left (p, i) times right (i, q).
  * The entrywise maximum with the splat of the zero word, read at an entry, is the maximum with 0.
  * Two indices of a two-axis array are equal when their coordinates are.
-/
import Idealize.ShloMosaic.PureOps.Ideal
import Idealize.ShloMosaic.PureOps.Ideal.Laws
import Idealize.ShloMosaic.Lib.ValueIdx
import Idealize.ShloMosaic.Lib.Pipeline.Value
import proofs.«167315_j34772055229049_2_alg».proof.Proof.LibPlainDot

noncomputable section

open scoped BigOperators

namespace Cert.LibDenseLayerEntry

open Idealize.ShloMosaic Idealize.ShloMosaic.ValueIdx

/-- Two indices of a two-axis array are equal when their two coordinates are equal as numbers. -/
theorem idx2_ext {n0 n1 : ℕ} {f g : (⟨2, ![n0, n1]⟩ : Shape).Idx} (h0 : (f 0).val = (g 0).val)
    (h1 : (f 1).val = (g 1).val) : f = g :=
  funext fun a => Fin.ext (by
    match a with
    | ⟨0, _⟩ => exact h0
    | ⟨1, _⟩ => exact h1)

/-- An [a, b] array transposed to [b, a], read at (p, q), is the array at (q, p). -/
theorem transpose2_apply {α : Type} {a b : ℕ} (v : (⟨2, ![a, b]⟩ : Shape).Idx → α)
    (h : (⟨2, ![a, b]⟩ : Shape).Transposes [1, 0] ⟨2, ![b, a]⟩) (p : Fin b) (q : Fin a) :
    transpose ⟨2, ![b, a]⟩ [1, 0] v h (ix2 p q) = v (ix2 q p) :=
  transpose_apply [1, 0] v h (ix2 p q) (ix2 q p) (fun ax => match ax with
    | ⟨0, _⟩ => rfl
    | ⟨1, _⟩ => rfl)

/-- A plain matrix product accumulated into the zero array, read at (p, q): the sum over i of left (p, i) times
    right (i, q). -/
theorem matmul_zero_apply {M K N : ℕ} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1]) (prec : Option ContractPrecision)
    (L : FVec Ideal ⟨2, ![M, K]⟩ .f32) (R : FVec Ideal ⟨2, ![K, N]⟩ .f32) (p : Fin M) (q : Fin N) :
    matmul D prec L R (constant ⟨2, ![M, N]⟩ .f32 0x00000000#32) (ix2 p q) = ∑ i : Fin K, L (ix2 p i) * R (ix2 i q) :=
  (Ideal.matmul_constant_zero_apply D prec L R (ix2 p q)).trans
    (Cert.LibPlainDot.sum_plain D hlc hrc hlb hrb hln hrn L R p q)

/-- The entrywise maximum with the splat of the zero word, at an entry: the maximum with 0. -/
theorem max_zero_splat_apply {s : Shape} (X : FVec Ideal s .f32) (i : s.Idx) :
    maximumf X (broadcast s (Scalar.ofBits (F := Ideal) .f32 0x00000000#32)) i = max (X i) 0 := by
  show max (X i) (Ideal.ofBits .f32 0x00000000#32) = _
  rw [Ideal.ofBits_zero_f32]

end Cert.LibDenseLayerEntry

end
-- ==== Proof.ProjArray.lean ====
/-
  The projected table the kernel leaves in its output array.

  The kernel runs over 25 grid points.  At point `t` it is given rows `4000·t … 4000·t + 3999` of the node features
  (all 256 columns) and the whole `[256, 256]` weight array, and writes rows `4000·t … 4000·t + 3999` of the output.
  The 25 row blocks tile the 100000 rows, so after the run the output array is, entry by entry, the matrix product
  of the node features with the weight array: `product X W (r, q) = Σ i, X (r, i) · W (i, q)`.
-/
import proofs.«167315_j34772055229049_2_alg».proof.Proof.Gen.KernelIdeal.Frame
import proofs.«167315_j34772055229049_2_alg».proof.Proof.ProjBody
import proofs.«167315_j34772055229049_2_alg».proof.Proof.LibDenseLayerEntry
import Idealize.ShloMosaic.Lib.Pipeline.Value
import Idealize.ShloMosaic.Lib.ValueIdx

set_option maxRecDepth 16384

noncomputable section

open scoped BigOperators

namespace Cert.ProjArray

open Cert.KernelIdeal Cert.KernelIdeal.Gen Idealize.ShloMosaic Idealize.ShloMosaic.TcCoe Idealize.ShloMosaic.ValueIdx
open Idealize.SL.Sem
open Idealize.ShloMosaic.Pipeline (Dat)

/-- The matrix product of a `[100000, 256]` array with a `[256, 256]` array, entry by entry. -/
def product (X : S100000x256.Idx → EReal) (W : S256x256.Idx → EReal) : S100000x256.Idx → EReal :=
  fun i => ∑ k : Fin 256, X (ix2 (⟨(i 0).val, (i 0).isLt⟩ : Fin 100000) k) * W (ix2 k (⟨(i 1).val, (i 1).isLt⟩ : Fin 256))

theorem product_apply (X : S100000x256.Idx → EReal) (W : S256x256.Idx → EReal) (r : Fin 100000) (q : Fin 256) :
    product X W (ix2 r q) = ∑ k : Fin 256, X (ix2 r k) * W (ix2 k q) := rfl

/-- One block's arithmetic is the product's: when the block `x` holds rows `4000·b + p` of `X` and `w` is `W`, the body's
    entry `(p, q)` is the product's entry `(4000·b + p, q)`. -/
theorem block_entry (X : S100000x256.Idx → EReal) (W : S256x256.Idx → EReal)
    (x : Vec Ideal S4000x256 .f32) (w : Vec Ideal S256x256 .f32) (b : ℕ) (hb : b < 25)
    (hx : ∀ (p : Fin 4000) (i : Fin 256), x (ix2 p i) = X (ix2 (⟨b * 4000 + p.val, by have := p.isLt; omega⟩ : Fin 100000) i))
    (hw : ∀ (i q : Fin 256), w (ix2 i q) = W (ix2 i q)) (p : Fin 4000) (q : Fin 256) :
    k0_pay1 (F := Ideal) x w (ix2 p q) = product X W (ix2 (⟨b * 4000 + p.val, by have := p.isLt; omega⟩ : Fin 100000) q) := by
  rw [product_apply]
  refine (Cert.ProjBody.payload_entry x w p q).trans ?_
  refine Finset.sum_congr rfl fun i _ => ?_
  rw [hx p i, hw i q]

variable (m : (ℓ : Loc nD τ sig) → Buf (Elt Ideal) ℓ)

theorem zero_offsets : (![0, 0] : Fin 2 → Nat) = fun _ => 0 := funext fun a => by fin_cases a <;> rfl

/-- The three index maps over the grid: at point `t` the feature block and the output block are row block `t` (column
    block 0), and the weight block is always block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds. -/
theorem flushed_eq (c : Dev nD) (t : Fin cfg0.N) :
    (dats m 0 c).flushed 2 t = ((cfg0.win 2).blk t).view.read (Elt Ideal) (product (V m c main_arg0) (V m c main_v41)) := by
  show (cfg0.win 2).cut (grid0.coords t) ((dats m 0 c).after 2 t) = _
  rw [after0_2]
  unfold out0_2
  rw [View.canon_unit_zero zero_offsets]
  simp only [View.ld_unit_zero (S := S4000x256) zero_offsets, View.ld_unit_zero (S := S256x256) zero_offsets]
  obtain ⟨e0, e1, e2, e3, e4, e5⟩ := index_facts t
  have ht : t.val < 25 := lt_of_lt_of_eq t.isLt N_0
  funext j
  have hj0 : (j 0).val < 4000 := (j 0).isLt
  have hj1 : (j 1).val < 256 := (j 1).isLt
  have key := block_entry (V m c main_arg0) (V m c main_v41) (iblk m c 0 t) (iblk m c 1 t) t.val ht
    (fun p i => by
      show V m c main_arg0 (((cfg0.win 0).blk t).view.emb (ix2 p i)) = _
      refine congrArg (V m c main_arg0) (Cert.LibDenseLayerEntry.idx2_ext ?_ ?_)
      · show win0_0.index t (0 : Fin 2) * 4000 + 1 * p.val = t.val * 4000 + p.val; omega
      · show win0_0.index t (1 : Fin 2) * 256 + 1 * i.val = i.val; omega)
    (fun i q => by
      show V m c main_v41 (((cfg0.win 1).blk t).view.emb (ix2 i q)) = _
      refine congrArg (V m c main_v41) (Cert.LibDenseLayerEntry.idx2_ext ?_ ?_)
      · show win0_1.index t (0 : Fin 2) * 256 + 1 * i.val = i.val; omega
      · show win0_1.index t (1 : Fin 2) * 256 + 1 * q.val = q.val; omega)
    ⟨(j 0).val, hj0⟩ ⟨(j 1).val, hj1⟩
  refine Eq.trans ?_ (key.trans ?_)
  · exact congrArg (k0_pay1 (F := Ideal) (iblk m c 0 t) (iblk m c 1 t)) (eq_ix2 (n0 := 4000) (n1 := 256) j)
  · show product (V m c main_arg0) (V m c main_v41) _ = product (V m c main_arg0) (V m c main_v41) (((cfg0.win 2).blk t).view.emb j)
    refine congrArg (product (V m c main_arg0) (V m c main_v41)) (Cert.LibDenseLayerEntry.idx2_ext ?_ ?_)
    · show t.val * 4000 + (j 0).val = win0_2.index t (0 : Fin 2) * 4000 + 1 * (j 0).val; omega
    · show (j 1).val = win0_2.index t (1 : Fin 2) * 256 + 1 * (j 1).val; omega

/-- An index of the array lies in point `t`'s block iff each coordinate lies in the block's range on its axis. -/
theorem mem_block (t : Fin cfg0.N) (i : S100000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v42).slice (win0_2.rect t)).set ↔ _
  rw [View.set_slice_whole, Rect.mem_set_unit]
  exact Iff.rfl

/-- Row `r` is written at point `r / 4000`: the blocks tile the array. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : (i 0).val / 4000 < cfg0.N := lt_of_lt_of_eq (by omega : (i 0).val / 4000 < 25) N_0.symm
  obtain ⟨e0, e1, e2, e3, e4, e5⟩ := index_facts ⟨(i 0).val / 4000, hN⟩
  refine ⟨⟨(i 0).val / 4000, hN⟩, flush0_2 _, ?_⟩
  rw [mem_block]
  intro a
  match a with
  | ⟨0, _⟩ =>
    show win0_2.index ⟨(i 0).val / 4000, hN⟩ (0 : Fin 2) * 4000 ≤ (i 0).val ∧ (i 0).val < win0_2.index ⟨(i 0).val / 4000, hN⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, hN⟩ (1 : Fin 2) * 256 ≤ (i 1).val ∧ (i 1).val < win0_2.index ⟨(i 0).val / 4000, hN⟩ (1 : Fin 2) * 256 + 256
    omega

/-- After the run the output array is the product of the two arrays the region found. -/
theorem final (c : Dev nD) : (dats m 0 c).arrAt 2 cfg0.N = product (V m c main_arg0) (V m c main_v41) :=
  (dats m 0 c).arrAt_eq_of_cover 2 _ (fun t _ => flushed_eq m c t) cover

end Cert.ProjArray

end
-- ==== Proof.KernelRun.lean ====
/-
  The kernel program's run, read back.

  Every weakly fair execution of the kernel program terminates and leaves its five argument arrays as they were.  Its
  result buffer ends at `EdgeSpec.output` of the left and right 128 columns of `X · weights W_f W_b`, the edge list and
  the bias: the region leaves the product in its output array, and the host operations after the region aggregate the
  array's two halves along the edges.
-/
import proofs.«167315_j34772055229049_2_alg».proof.Proof.KernelHost
import proofs.«167315_j34772055229049_2_alg».proof.Proof.ProjArray

set_option maxRecDepth 16384

noncomputable section

namespace Cert.KernelRun

open Cert.KernelIdeal Cert.KernelIdeal.Gen Idealize.ShloMosaic Idealize.ShloMosaic.TcCoe Idealize.SL.Sem Idealize.ShloMosaic.StableHlo
open Cert.KernelHost Cert.ProjArray

variable (m : (ℓ : Loc nD τ sig) → Buf (Elt Ideal) ℓ) (ρ : Dev nD → PrngReg)

/-- The product the region leaves, from the argument arrays. -/
def table (c : Dev nD) : S100000x256.Idx → EReal :=
  product (m ((c : Thread nD τ).loc main_arg0)) (weights (m ((c : Thread nD τ).loc main_arg2)) (m ((c : Thread nD τ).loc main_arg3)))

/-- The result buffer after the run, as a function of the five argument arrays. -/
def result (c : Dev nD) : Buf (Elt Ideal) ((c.tc : Thread nD τ).loc main_v76) :=
  Cert.EdgeSpec.output (F := Ideal) (leftHalf (table m c)) (rightHalf (table m c))
    (m ((c : Thread nD τ).loc main_arg1)) (m ((c : Thread nD τ).loc main_arg4))

/-- The region's output array after the run is the product of the argument arrays. -/
theorem table_eq (c : Dev nD) : (dats m 0 c).arrAt 2 cfg0.N = table m c := by
  rw [final m c, V_main_arg0 m c, V_weights m c]
  rfl

/-- The host operations after the region leave `result` in the result buffer. -/
theorem tail_result (c : Dev nD) :
    Pipeline.afterTail₀ cfgs (dats m) 0 (V0 m) [hostOps1] c main_v76 = result m c := by
  unfold Pipeline.afterTail₀
  show StableHlo.after hostOps1 (Pipeline.withArrays spec0 c (V0 m c) fun w => (dats m 0 c).arrAt w cfg0.N) (Proc.devRef .tc main_v76) = _
  refine (tail_eval _).trans ?_
  have h42 : Pipeline.withArrays spec0 c (V0 m c) (fun w => (dats m 0 c).arrAt w cfg0.N) (Proc.devRef .tc main_v42) = table m c :=
    (Pipeline.withArrays_arr spec0 launch0.win.arr_inj c (V0 m c) (fun w => (dats m 0 c).arrAt w cfg0.N) 2).trans (table_eq m c)
  have h6 : Pipeline.withArrays spec0 c (V0 m c) (fun w => (dats m 0 c).arrAt w cfg0.N) (Proc.devRef .tc main_v6)
      = Cert.EdgeSpec.endpoint0 (F := Ideal) (m ((c : Thread nD τ).loc main_arg1)) :=
    (Pipeline.withArrays_of_ne spec0 c (V0 m c) _ main_v6 (by exact (by decide : ∀ w, Pipeline.arrRef spec0 w ≠ main_v6))).trans (V_endpoint0 m c)
  have h8 : Pipeline.withArrays spec0 c (V0 m c) (fun w => (dats m 0 c).arrAt w cfg0.N) (Proc.devRef .tc main_v8)
      = Cert.EdgeSpec.endpoint1 (F := Ideal) (m ((c : Thread nD τ).loc main_arg1)) :=
    (Pipeline.withArrays_of_ne spec0 c (V0 m c) _ main_v8 (by exact (by decide : ∀ w, Pipeline.arrRef spec0 w ≠ main_v8))).trans (V_endpoint1 m c)
  have h39 : Pipeline.withArrays spec0 c (V0 m c) (fun w => (dats m 0 c).arrAt w cfg0.N) (Proc.devRef .tc main_v39)
      = Cert.EdgeSpec.edgeWeightOf (F := Ideal) (Cert.EdgeSpec.endpoint0 (F := Ideal) (m ((c : Thread nD τ).loc main_arg1)))
          (Cert.EdgeSpec.endpoint1 (F := Ideal) (m ((c : Thread nD τ).loc main_arg1))) :=
    (Pipeline.withArrays_of_ne spec0 c (V0 m c) _ main_v39 (by exact (by decide : ∀ w, Pipeline.arrRef spec0 w ≠ main_v39))).trans (V_edgeWeight m c)
  have h4 : Pipeline.withArrays spec0 c (V0 m c) (fun w => (dats m 0 c).arrAt w cfg0.N) (Proc.devRef .tc main_arg4)
      = m ((c : Thread nD τ).loc main_arg4) :=
    (Pipeline.withArrays_of_ne spec0 c (V0 m c) _ main_arg4 (by exact (by decide : ∀ w, Pipeline.arrRef spec0 w ≠ main_arg4))).trans (V_main_arg4 m c)
  rw [h42, h6, h8, h39, h4]
  rfl

/-- Every weakly fair execution of the kernel program terminates with the result buffer at `result` and the argument
    arrays unchanged. -/
theorem run : θ_run defs (onTc (τ := τ) (main (F := Ideal))) ⟨m, fun _ => 0, ρ⟩ (fun r => ∀ c : Dev nD,
      r.2.mem ((c.tc : Thread nD τ).loc main_v76) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v76 (Pipeline.mem_restRefs_of main_v76 (by decide) (by decide))).trans (tail_result m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelRun

end
-- ==== Proof.LibJoinHalves.lean ====
/-
  Two arrays of one shape joined along an axis, read at an index.

  Joining two [n, d] arrays side by side gives an [n, d + d] array whose entry (p, k) is the first array's (p, k)
  for k < d and the second array's (p, k − d) from d on; joining two [d, e] arrays one above the other gives a
  [d + d, e] array read the same way along its rows.
-/
import Idealize.ShloMosaic.Lib.Pipeline.Value
import Idealize.ShloMosaic.Lib.ValueIdx

namespace Cert.LibJoinHalves

open Idealize.ShloMosaic Idealize.ShloMosaic.ValueIdx

variable {α : Type}

/-- Side by side, a column of the first half: the first array's entry. -/
theorem join_cols_left {n d dd : ℕ} (hdd : dd = d + d) (x₁ x₂ : (⟨2, ![n, d]⟩ : Shape).Idx → α)
    (h : Shape.Concatenates [⟨2, ![n, d]⟩, ⟨2, ![n, d]⟩] ⟨2, ![n, dd]⟩ 1) (p : Fin n) (k : Fin d) :
    concatenate ⟨2, ![n, dd]⟩ 1 [⟨⟨2, ![n, d]⟩, x₁⟩, ⟨⟨2, ![n, d]⟩, x₂⟩] h (ix2 p (⟨k.val, by omega⟩ : Fin dd)) = x₁ (ix2 p k) :=
  concatenate_pair_apply_left 1 x₁ x₂ h _ rfl (ix2 p k) (fun b => match b with
    | ⟨0, _⟩ => rfl
    | ⟨1, _⟩ => rfl)

/-- Side by side, a column of the second half: the second array's entry, d columns back. -/
theorem join_cols_right {n d dd : ℕ} (hdd : dd = d + d) (x₁ x₂ : (⟨2, ![n, d]⟩ : Shape).Idx → α)
    (h : Shape.Concatenates [⟨2, ![n, d]⟩, ⟨2, ![n, d]⟩] ⟨2, ![n, dd]⟩ 1) (p : Fin n) (k : Fin d) :
    concatenate ⟨2, ![n, dd]⟩ 1 [⟨⟨2, ![n, d]⟩, x₁⟩, ⟨⟨2, ![n, d]⟩, x₂⟩] h (ix2 p (⟨d + k.val, by omega⟩ : Fin dd)) = x₂ (ix2 p k) :=
  concatenate_pair_apply_right 1 x₁ x₂ h _ rfl rfl (ix2 p k) (fun b hb => match b with
    | ⟨0, _⟩ => rfl
    | ⟨1, _⟩ => absurd rfl hb) (by show k.val + d = d + k.val; omega)

/-- One above the other, a row of the first half: the first array's entry. -/
theorem join_rows_left {d e dd : ℕ} (hdd : dd = d + d) (x₁ x₂ : (⟨2, ![d, e]⟩ : Shape).Idx → α)
    (h : Shape.Concatenates [⟨2, ![d, e]⟩, ⟨2, ![d, e]⟩] ⟨2, ![dd, e]⟩ 0) (k : Fin d) (q : Fin e) :
    concatenate ⟨2, ![dd, e]⟩ 0 [⟨⟨2, ![d, e]⟩, x₁⟩, ⟨⟨2, ![d, e]⟩, x₂⟩] h (ix2 (⟨k.val, by omega⟩ : Fin dd) q) = x₁ (ix2 k q) :=
  concatenate_pair_apply_left 0 x₁ x₂ h _ rfl (ix2 k q) (fun b => match b with
    | ⟨0, _⟩ => rfl
    | ⟨1, _⟩ => rfl)

/-- One above the other, a row of the second half: the second array's entry, d rows up. -/
theorem join_rows_right {d e dd : ℕ} (hdd : dd = d + d) (x₁ x₂ : (⟨2, ![d, e]⟩ : Shape).Idx → α)
    (h : Shape.Concatenates [⟨2, ![d, e]⟩, ⟨2, ![d, e]⟩] ⟨2, ![dd, e]⟩ 0) (k : Fin d) (q : Fin e) :
    concatenate ⟨2, ![dd, e]⟩ 0 [⟨⟨2, ![d, e]⟩, x₁⟩, ⟨⟨2, ![d, e]⟩, x₂⟩] h (ix2 (⟨d + k.val, by omega⟩ : Fin dd) q) = x₂ (ix2 k q) :=
  concatenate_pair_apply_right 0 x₁ x₂ h _ rfl rfl (ix2 k q) (fun b hb => match b with
    | ⟨0, _⟩ => absurd rfl hb
    | ⟨1, _⟩ => rfl) (by show k.val + d = d + k.val; omega)

end Cert.LibJoinHalves
-- ==== Proof.Bridge.lean ====
/-
  The two ways of forming the projected tables agree.

  The kernel multiplies the node features `X` once by the `[256, 256]` array whose column `q` is row `q` of `W_f` for
  `q < 128` and row `q - 128` of `W_b` from 128 on, and cuts the product into its left and right 128 columns.  The
  reference multiplies `X` by `W_fᵀ` and by `W_bᵀ` separately.  Entry `(r, k)` of the left half is
  `Σ i, X (r, i) · W_f (k, i)`, which is entry `(r, k)` of `X · W_fᵀ`; likewise on the right with `W_b`.  The sums are
  the same sums term by term, so no law of the extended reals is needed beyond reading both sides at an entry.
-/
import proofs.«167315_j34772055229049_2_alg».proof.Proof.KernelHost
import proofs.«167315_j34772055229049_2_alg».proof.Proof.ProjArray
import proofs.«167315_j34772055229049_2_alg».proof.Proof.LibJoinHalves
import proofs.«167315_j34772055229049_2_alg».proof.Proof.LibDenseLayerEntry
import proofs.«167315_j34772055229049_2_alg».proof.Proof.LibPlainDot
import Idealize.ShloMosaic.PureOps.Ideal.Laws
import Idealize.ShloMosaic.Lib.Pipeline.Value
import Idealize.ShloMosaic.Lib.ValueIdx

set_option maxRecDepth 16384

noncomputable section

open scoped BigOperators

namespace Cert.Bridge

open Idealize.ShloMosaic Idealize.ShloMosaic.TcCoe Idealize.ShloMosaic.ValueIdx
open Cert.KernelHost Cert.ProjArray

/-- Column `k < 128` of the kernel's weight array is row `k` of `W_f`. -/
theorem weights_left (x2 x3 : Cert.KernelIdeal.S128x256.Idx → EReal) (i : Fin 256) (k : Fin 128) :
    weights x2 x3 (ix2 i (⟨k.val, by have := k.isLt; omega⟩ : Fin 256)) = x2 (ix2 k i) := by
  unfold weights
  exact (Cert.LibDenseLayerEntry.transpose2_apply _ Cert.KernelIdeal.Gen.transposes_S256x256_S256x256_1_0 i _).trans
    (Cert.LibJoinHalves.join_rows_left (d := 128) (e := 256) (dd := 256) rfl x2 x3
      Cert.KernelIdeal.Gen.concatenates_S128x256_S128x256_S256x256_d0 k i)

/-- Column `128 + k` of the kernel's weight array is row `k` of `W_b`. -/
theorem weights_right (x2 x3 : Cert.KernelIdeal.S128x256.Idx → EReal) (i : Fin 256) (k : Fin 128) :
    weights x2 x3 (ix2 i (⟨128 + k.val, by have := k.isLt; omega⟩ : Fin 256)) = x3 (ix2 k i) := by
  unfold weights
  exact (Cert.LibDenseLayerEntry.transpose2_apply _ Cert.KernelIdeal.Gen.transposes_S256x256_S256x256_1_0 i _).trans
    (Cert.LibJoinHalves.join_rows_right (d := 128) (e := 256) (dd := 256) rfl x2 x3
      Cert.KernelIdeal.Gen.concatenates_S128x256_S128x256_S256x256_d0 k i)

/-- Entry `(r, k)` of the left half of the kernel's product. -/
theorem leftHalf_product (X : Cert.KernelIdeal.S100000x256.Idx → EReal) (x2 x3 : Cert.KernelIdeal.S128x256.Idx → EReal)
    (r : Fin 100000) (k : Fin 128) :
    leftHalf (product X (weights x2 x3)) (ix2 r k) = ∑ i : Fin 256, X (ix2 r i) * x2 (ix2 k i) := by
  unfold leftHalf
  refine (extractStridedSlice_apply ![0, 0] _ Cert.KernelIdeal.Gen.slices_S100000x256_S100000x128_0_0 (ix2 r k)
    (ix2 r (⟨k.val, by have := k.isLt; omega⟩ : Fin 256)) (fun a => ?_)).trans ?_
  · match a with
    | ⟨0, _⟩ => show r.val = 0 + r.val; omega
    | ⟨1, _⟩ => show k.val = 0 + k.val; omega
  · rw [product_apply]
    exact Finset.sum_congr rfl fun i _ => by rw [weights_left]

/-- Entry `(r, k)` of the right half of the kernel's product. -/
theorem rightHalf_product (X : Cert.KernelIdeal.S100000x256.Idx → EReal) (x2 x3 : Cert.KernelIdeal.S128x256.Idx → EReal)
    (r : Fin 100000) (k : Fin 128) :
    rightHalf (product X (weights x2 x3)) (ix2 r k) = ∑ i : Fin 256, X (ix2 r i) * x3 (ix2 k i) := by
  unfold rightHalf
  refine (extractStridedSlice_apply ![0, 128] _ Cert.KernelIdeal.Gen.slices_S100000x256_S100000x128_0_128 (ix2 r k)
    (ix2 r (⟨128 + k.val, by have := k.isLt; omega⟩ : Fin 256)) (fun a => ?_)).trans ?_
  · match a with
    | ⟨0, _⟩ => show r.val = 0 + r.val; omega
    | ⟨1, _⟩ => show 128 + k.val = 128 + k.val; rfl
  · rw [product_apply]
    exact Finset.sum_congr rfl fun i _ => by rw [weights_right]

/-- Entry `(r, k)` of the reference's `X · Wᵀ`: the weight matrix transposed, then one matrix product. -/
theorem projected_apply (X : Cert.ReferenceIdeal.S100000x256.Idx → EReal) (w : Cert.ReferenceIdeal.S128x256.Idx → EReal)
    (r : Fin 100000) (k : Fin 128) :
    Host.dotGeneral (F := Ideal) (φ₁ := .f32) (φ₂ := .f32) Cert.ReferenceIdeal.dot_S100000x256_S256x128_S100000x128_1_0_0_1_n_n none X
        (transpose Cert.ReferenceIdeal.S256x128 [1, 0] w Cert.ReferenceIdeal.Gen.transposes_S128x256_S256x128_1_0) (ix2 r k)
      = ∑ i : Fin 256, X (ix2 r i) * w (ix2 k i) := by
  refine (Ideal.dotGeneral_apply _ none .single X _ (ix2 r k)).trans ?_
  refine (Cert.LibPlainDot.sum_plain Cert.ReferenceIdeal.dot_S100000x256_S256x128_S100000x128_1_0_0_1_n_n rfl rfl rfl rfl rfl rfl
    X _ r k).trans ?_
  exact Finset.sum_congr rfl fun i _ => by rw [Cert.LibDenseLayerEntry.transpose2_apply]

/-- The left half of the kernel's product is the reference's `X · W_fᵀ`. -/
theorem leftHalf_eq (X : Cert.KernelIdeal.S100000x256.Idx → EReal) (x2 x3 : Cert.KernelIdeal.S128x256.Idx → EReal) :
    leftHalf (product X (weights x2 x3))
      = Host.dotGeneral (F := Ideal) (φ₁ := .f32) (φ₂ := .f32) Cert.ReferenceIdeal.dot_S100000x256_S256x128_S100000x128_1_0_0_1_n_n none X
          (transpose Cert.ReferenceIdeal.S256x128 [1, 0] x2 Cert.ReferenceIdeal.Gen.transposes_S128x256_S256x128_1_0) := by
  funext j
  obtain ⟨r, k, rfl⟩ : ∃ (r : Fin 100000) (k : Fin 128), j = ix2 r k := ⟨j 0, j 1, eq_ix2 j⟩
  exact (leftHalf_product X x2 x3 r k).trans (projected_apply X x2 r k).symm

/-- The right half of the kernel's product is the reference's `X · W_bᵀ`. -/
theorem rightHalf_eq (X : Cert.KernelIdeal.S100000x256.Idx → EReal) (x2 x3 : Cert.KernelIdeal.S128x256.Idx → EReal) :
    rightHalf (product X (weights x2 x3))
      = Host.dotGeneral (F := Ideal) (φ₁ := .f32) (φ₂ := .f32) Cert.ReferenceIdeal.dot_S100000x256_S256x128_S100000x128_1_0_0_1_n_n none X
          (transpose Cert.ReferenceIdeal.S256x128 [1, 0] x3 Cert.ReferenceIdeal.Gen.transposes_S128x256_S256x128_1_0) := by
  funext j
  obtain ⟨r, k, rfl⟩ : ∃ (r : Fin 100000) (k : Fin 128), j = ix2 r k := ⟨j 0, j 1, eq_ix2 j⟩
  exact (rightHalf_product X x2 x3 r k).trans (projected_apply X x3 r k).symm

end Cert.Bridge

end
-- ==== Proof.lean ====
/-
  A graph convolution with directed normalisation: kernel against reference, over the extended reals.

  Both programs take node features `X : [100000, 256]`, an edge list `[2, 1600000]`, two weight matrices
  `W_f, W_b : [128, 256]` and a bias `[256]`.  Both append a self loop per node, count the two degrees of every node,
  weight edge `e` by `d₁(e₁)^(-1/2) · 1 · d₀(e₀)^(-1/2)` (zero where a degree is zero), and return, side by side and plus the
  bias, the forward aggregate of the table `X · W_fᵀ` (rows sent from `e₁` to `e₀`) and the backward aggregate of
  `X · W_bᵀ` (rows sent from `e₀` to `e₁`): `Proof/EdgeSpec.lean` states this shared part once, as a function of the two
  tables.

  The programs differ in how the tables are formed.  The reference transposes each weight matrix and multiplies
  (`Proof/RefRun.lean`).  The kernel program stacks `W_f` above `W_b`, transposes the `[256, 256]` stack, multiplies `X` by
  it in one tiled kernel (25 row blocks of 4000 rows, bf16 operands, an f32 accumulator started at zero, a bf16 result:
  over the extended reals every change of format is the identity, `Proof/ProjBody.lean`, `Proof/ProjArray.lean`), and takes
  the left and right 128 columns of the product (`Proof/KernelHost.lean`, `Proof/KernelRun.lean`).  Column `k` of the stack's
  transpose is row `k` of `W_f`, and column `128 + k` is row `k` of `W_b`, so the two halves are `X · W_fᵀ` and `X · W_bᵀ`
  entry by entry, the same sums term by term (`Proof/Bridge.lean`).  No law of the extended reals beyond that is used, and
  the inputs' finiteness is never needed.

  The ideal pass rewrote nothing, so the kernel's idealisation is its own text and `preserves` is trivial; the word-level
  kernel and the idealised kernel run by their frame certificates, the reference by its run with the result dropped.
-/
import proofs.«167315_j34772055229049_2_alg».proof.Defs
import proofs.«167315_j34772055229049_2_alg».proof.Proof.Gen.Kernel
import proofs.«167315_j34772055229049_2_alg».proof.Proof.Gen.Kernel.Skeleton
import proofs.«167315_j34772055229049_2_alg».proof.Proof.Gen.Kernel.Launch
import proofs.«167315_j34772055229049_2_alg».proof.Proof.Gen.Kernel.Points
import proofs.«167315_j34772055229049_2_alg».proof.Proof.Gen.Kernel.Frame
import proofs.«167315_j34772055229049_2_alg».proof.Proof.Gen.KernelIdeal
import proofs.«167315_j34772055229049_2_alg».proof.Proof.Gen.KernelIdeal.Skeleton
import proofs.«167315_j34772055229049_2_alg».proof.Proof.Gen.KernelIdeal.Launch
import proofs.«167315_j34772055229049_2_alg».proof.Proof.Gen.KernelIdeal.Points
import proofs.«167315_j34772055229049_2_alg».proof.Proof.Gen.KernelIdeal.Frame
import proofs.«167315_j34772055229049_2_alg».proof.Proof.Gen.ReferenceIdeal
import proofs.«167315_j34772055229049_2_alg».proof.Proof.Gen.Pre_finite_inputs
import proofs.«167315_j34772055229049_2_alg».proof.Proof.RefRun
import proofs.«167315_j34772055229049_2_alg».proof.Proof.KernelRun
import proofs.«167315_j34772055229049_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.RefRun.run (F := Ideal) m ρ)

/-- The ideal pass rewrote no operation. -/
theorem preserves : Cert.preserves_Kernel_KernelIdeal := trivial

/-- From memories that agree on the five arguments, the reference's result is the kernel program's: the shared part
    applied to the same edge list and bias, and to tables that are equal array by array. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.RefRun.result (F := Ideal) m' c = Cert.KernelRun.result m c := by
  obtain ⟨h0, h1, h2, h3, h4⟩ := h
  unfold Cert.RefRun.result Cert.KernelRun.result Cert.KernelRun.table
  rw [h0, h1, h2, h3, h4, Cert.Bridge.leftHalf_eq, Cert.Bridge.rightHalf_eq]
  rfl

/-- Both idealised programs run, and end with equal results. -/
theorem algebraic : Cert.algebraic_KernelIdeal_ReferenceIdeal := by
  intro m ρ m' ρ' _ hagree
  refine ⟨fun c => Cert.KernelRun.result m c, Cert.KernelRun.run m ρ, ?_⟩
  exact (θ_run Cert.ReferenceIdeal.defs _ _).mono
    (fun _ h c => ⟨(h c).1.trans (results_agree m m' c (hagree c)), (h c).2⟩)
    (Cert.RefRun.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
